-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x47 : Shape := ⟨2, ![1, 47]⟩
abbrev S100000x47 : Shape := ⟨2, ![100000, 47]⟩
abbrev S5000x47 : Shape := ⟨2, ![5000, 47]⟩

abbrev nBuf : Space → Nat
  | .hbm => 75
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S100000x1, .f32⟩
  | .hbm, ⟨16, _⟩ => ⟨S1600000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x47, .f32⟩
  | .hbm, ⟨74, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x47, .f32⟩
  | .local _ .vmem, ⟨23, _⟩ => ⟨S128x47, .f32⟩
  | .local _ .vmem, ⟨24, _⟩ => ⟨S1x47, .f32⟩
  | .local _ .vmem, ⟨25, _⟩ => ⟨S5000x47, .f32⟩
  | .local _ .vmem, ⟨26, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S100000x47.size a
  hwx2_5 : ∀ i : grid2.Coords, EltTy.bits .f32 = 32 ∨ (Rect.block (s := S100000x47) S5000x47.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x47 : Shape := ⟨2, ![100000, 47]⟩
abbrev S1x47 : Shape := ⟨2, ![1, 47]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S1600000x1, .f32⟩
  | .hbm, ⟨93, _⟩ => ⟨S_, .f32⟩
  | .hbm, ⟨94, _⟩ => ⟨S100000x1, .f32⟩
  | .hbm, ⟨95, _⟩ => ⟨S1600000x1, .i32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x47, .f32⟩
  | .hbm, ⟨103, _⟩ => ⟨S100000x47, .f32⟩
  | .hbm, ⟨104, _⟩ => ⟨S100000x47, .f32⟩
  | .hbm, ⟨105, _⟩ => ⟨S1x47, .f32⟩
  | .hbm, ⟨106, _⟩ => ⟨S100000x47, .f32⟩
  | .hbm, ⟨107, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.KBody.lean ====
/-
  THE KERNELS' BODIES READ AT AN ENTRY. Each of the three dense kernels loads a block of 5000 rows of the node features
  (x0) and of the neighbourhood means (x1), the two weight matrices whole (x2, x3) and the bias as one row (x4), and stores

      (x0 · x2 + x1 · x3) + (the bias row laid along the 5000 rows),        clamped below by 0.0 in the first two kernels.

  At the exact instance a change of float format is the identity and a matrix product into a zero accumulator is the plain
  sum over the contracted axis, so the stored block at row p and column q is

      (sum over k of x0(p, k) * x2(k, q)) + (sum over k of x1(p, k) * x3(k, q)) + x4(0, q).

  The four coordinate facts about each product's dimension record say which operand coordinate each output coordinate and
  the contracted coordinate go to: row of the left operand = row of the result, lane of the left operand = row of the right
  operand = the contracted index, column of the right operand = column of the result.
-/
import proofs.«173220_j35330400977011_1_alg».proof.Proof.Gen.KernelIdeal.Skeleton
import proofs.«173220_j35330400977011_1_alg».proof.Proof.LibMatmulRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-! ## The products' dimension records: which coordinate goes where -/

theorem dA_l0 (i : S5000x128.Idx) (s : dot_S5000x128_S128x128_S5000x128_1_0_0_1_n_n.contr.Idx) : (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dA_l1 (i : S5000x128.Idx) (s : dot_S5000x128_S128x128_S5000x128_1_0_0_1_n_n.contr.Idx) : (dot_S5000x128_S128x128_S5000x128_1_0_0_1_n_n.lhsIdx i s 1).val = (s ⟨0, by decide⟩).val :=
  dot_S5000x128_S128x128_S5000x128_1_0_0_1_n_n.lhsIdx_val_of_single rfl i s
theorem dA_r0 (i : S5000x128.Idx) (s : dot_S5000x128_S128x128_S5000x128_1_0_0_1_n_n.contr.Idx) : (dot_S5000x128_S128x128_S5000x128_1_0_0_1_n_n.rhsIdx i s 0).val = (s ⟨0, by decide⟩).val :=
  dot_S5000x128_S128x128_S5000x128_1_0_0_1_n_n.rhsIdx_val_of_single rfl i s
theorem dA_r1 (i : S5000x128.Idx) (s : dot_S5000x128_S128x128_S5000x128_1_0_0_1_n_n.contr.Idx) : (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dB_l0 (i : S5000x47.Idx) (s : dot_S5000x128_S128x47_S5000x47_1_0_0_1_n_n.contr.Idx) : (dot_S5000x128_S128x47_S5000x47_1_0_0_1_n_n.lhsIdx i s 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem dB_l1 (i : S5000x47.Idx) (s : dot_S5000x128_S128x47_S5000x47_1_0_0_1_n_n.contr.Idx) : (dot_S5000x128_S128x47_S5000x47_1_0_0_1_n_n.lhsIdx i s 1).val = (s ⟨0, by decide⟩).val :=
  dot_S5000x128_S128x47_S5000x47_1_0_0_1_n_n.lhsIdx_val_of_single rfl i s
theorem dB_r0 (i : S5000x47.Idx) (s : dot_S5000x128_S128x47_S5000x47_1_0_0_1_n_n.contr.Idx) : (dot_S5000x128_S128x47_S5000x47_1_0_0_1_n_n.rhsIdx i s 0).val = (s ⟨0, by decide⟩).val :=
  dot_S5000x128_S128x47_S5000x47_1_0_0_1_n_n.rhsIdx_val_of_single rfl i s
theorem dB_r1 (i : S5000x47.Idx) (s : dot_S5000x128_S128x47_S5000x47_1_0_0_1_n_n.contr.Idx) : (dot_S5000x128_S128x47_S5000x47_1_0_0_1_n_n.rhsIdx i s 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-! ## The three bodies at row p, column q -/

/-- The first kernel's stored block at (p, q). -/
theorem pay0_at (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q))
          (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact LibMatmulRows.matmul_rows dot_S5000x128_S128x128_S5000x128_1_0_0_1_n_n rfl rfl dA_l0 dA_l1 dA_r0 dA_r1 _ _ p q
    · refine (LibMatmulRows.matmul_rows dot_S5000x128_S128x128_S5000x128_1_0_0_1_n_n rfl rfl dA_l0 dA_l1 dA_r0 dA_r1 _ _ p q).trans ?_
      rw [shapeCast_self]; rfl
  · refine (broadcastTo_1b_ab_apply _ _ p q).trans ?_
    rw [shapeCast_self]

/-- The second kernel's stored block at (p, q). -/
theorem pay1_at (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q))
          (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (LibMatmulRows.matmul_rows dot_S5000x128_S128x128_S5000x128_1_0_0_1_n_n rfl rfl dA_l0 dA_l1 dA_r0 dA_r1 _ _ p q).trans ?_
      rw [shapeCast_self]; rfl
    · refine (LibMatmulRows.matmul_rows dot_S5000x128_S128x128_S5000x128_1_0_0_1_n_n rfl rfl dA_l0 dA_l1 dA_r0 dA_r1 _ _ p q).trans ?_
      rw [shapeCast_self]; rfl
  · refine (broadcastTo_1b_ab_apply _ _ p q).trans ?_
    rw [shapeCast_self]

/-- The third kernel's stored block at (p, q): no clamp. -/
theorem pay2_at (x0 x1 : FVec Ideal S5000x128 .f32) (x2 x3 : FVec Ideal S128x47 .f32) (x4 : FVec Ideal S1x47 .f32)
    (p : Fin 5000) (q : Fin 47) :
    k2_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k2_pay1
  refine (addf_apply _ _ _).trans ?_
  refine congrArg₂ (· + ·) ?_ ?_
  · refine (addf_apply _ _ _).trans ?_
    refine congrArg₂ (· + ·) ?_ ?_
    · refine (LibMatmulRows.matmul_rows dot_S5000x128_S128x47_S5000x47_1_0_0_1_n_n rfl rfl dB_l0 dB_l1 dB_r0 dB_r1 _ _ p q).trans ?_
      rw [shapeCast_self]; rfl
    · refine (LibMatmulRows.matmul_rows dot_S5000x128_S128x47_S5000x47_1_0_0_1_n_n rfl rfl dB_l0 dB_l1 dB_r0 dB_r1 _ _ p q).trans ?_
      rw [shapeCast_self]; rfl
  · refine (broadcastTo_1b_ab_apply _ _ p q).trans ?_
    rw [shapeCast_self]

end Cert.KernelIdeal.Body

end
-- ==== Proof.SageSpec.lean ====
/-
  THE SPECIFICATION of one graph-convolution layer, index by index on extended reals, with no program in sight.

  For a node-feature matrix h [N, K], a matrix of neighbourhood means mean [N, K], two weight matrices ws, wn [K, C] and a bias
  b [C], the layer's entry at node p and output channel q is

      (sum over k of h(p, k) * ws(k, q))  +  (sum over k of mean(p, k) * wn(k, q))  +  b(q):

  row p of the result depends on row p of h and of mean only, which is why a kernel may compute it a block of rows at a
  time. The rectifier clamps every entry from below by a number z (the word of 0.0 in the programs, never evaluated here).
-/
import Idealize.ShloMosaic.PureOps.Ideal
import Idealize.ShloMosaic.Lib.ValueIdx

noncomputable section

namespace Cert.Sage

open Idealize.ShloMosaic Idealize.ShloMosaic.ValueIdx
open scoped BigOperators

/-- One layer before its rectifier: self term plus neighbourhood term plus bias, at node (i 0) and channel (i 1). -/
def layer {N K C : ℕ} (h mean : (⟨2, ![N, K]⟩ : Shape).Idx → EReal) (ws wn : (⟨2, ![K, C]⟩ : Shape).Idx → EReal)
    (b : Fin C → EReal) : (⟨2, ![N, C]⟩ : Shape).Idx → EReal :=
  fun i => (∑ k : Fin K, h (ix2 (i 0) k) * ws (ix2 k (i 1)) + ∑ k : Fin K, mean (ix2 (i 0) k) * wn (ix2 k (i 1))) + b (i 1)

/-- The layer read at explicit coordinates. -/
theorem layer_at {N K C : ℕ} (h mean : (⟨2, ![N, K]⟩ : Shape).Idx → EReal) (ws wn : (⟨2, ![K, C]⟩ : Shape).Idx → EReal)
    (b : Fin C → EReal) (p : Fin N) (q : Fin C) :
    layer h mean ws wn b (ix2 p q)
      = (∑ k : Fin K, h (ix2 p k) * ws (ix2 k q) + ∑ k : Fin K, mean (ix2 p k) * wn (ix2 k q)) + b q := rfl

/-- The rectifier against the number z. -/
def rect {S : Shape} (z : EReal) (x : S.Idx → EReal) : S.Idx → EReal := fun i => max (x i) z

theorem rect_at {S : Shape} (z : EReal) (x : S.Idx → EReal) (i : S.Idx) : rect z x i = max (x i) z := rfl

end Cert.Sage

end
-- ==== Proof.KRegion.lean ====
/-
  FROM BLOCKS TO ARRAYS, region by region. Each dense kernel runs at 20 grid points; at point t it reads rows 5000 t … 5000 t + 4999
  of the node features and of the neighbourhood means, the two weight matrices and the bias row whole, and writes rows
  5000 t … 5000 t + 4999 of its output. Row p of a layer depends on row p of its two row-blocked inputs only, so what point t
  writes back is block t of ONE function of the whole arrays — the layer of SageSpec — and since the twenty blocks cover the 100000
  rows, the output array after the region IS that function of the arrays the region found. Everything is stated at a parameter V, the
  buffer contents when the region is entered: the run instantiates it region by region.
-/
import proofs.«173220_j35330400977011_1_alg».proof.Proof.FrameKernelIdeal
import proofs.«173220_j35330400977011_1_alg».proof.Proof.KBody
import proofs.«173220_j35330400977011_1_alg».proof.Proof.SageSpec
import Idealize.ShloMosaic.Lib.Pipeline.Value

set_option maxRecDepth 16384

noncomputable section

namespace Cert.KernelIdeal.Region

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The number the first two kernels clamp at: the word of 0.0, never evaluated. -/
abbrev zw : EReal := Ideal.ofBits .f32 0x00000000#32

/-! ## Region 0: the dense kernel over 20 blocks of 5000 rows -/

/-- The output array of region 0 as ONE function of the arrays the region finds: the layer, rectified. -/
abbrev G0 (a0 a1 : S100000x128.Idx → Elt Ideal .f32) (a2 a3 : S128x128.Idx → Elt Ideal .f32) (a4 : S1x128.Idx → Elt Ideal .f32) :
    S100000x128.Idx → Elt Ideal .f32 :=
  Sage.rect zw (Sage.layer (N := 100000) (K := 128) (C := 128) a0 a1 a2 a3 fun q => a4 (ix2 (0 : Fin 1) q))

/-- The printed index maps, decided over the grid: at point t the row-blocked windows sit at block row t, every other block
    index is 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row below 20 is some point's. -/
theorem idx_onto0 : ∀ (q0 : Fin 20), ∃ t : Fin cfg0.N, win0_5.index t = ![q0.val, 0] :=
  (by decide +kernel : ∀ (q0 : Fin 20), ∃ t : Fin grid0.N, win0_5.index t = ![q0.val, 0])

theorem lt20_0 (t : Fin cfg0.N) : t.val < 20 := lt_of_lt_of_eq t.isLt N_0

/-- Row p of block t is row 5000 t + p of the array. -/
def row0 (t : Fin cfg0.N) (p : Fin 5000) : Fin 100000 := ⟨t.val * 5000 + p.val, by have := lt20_0 t; omega⟩

/-- The node-feature block at (p, k) is the array's entry at (5000 t + p, k). -/
theorem blk0_0 (c : Dev nD) (t : Fin cfg0.N) (p : Fin 5000) (k : Fin 128) :
    iblk0 V c 0 t (ix2 p k) = V c main_arg0 (ix2 (row0 t p) k) := by
  obtain ⟨e00, e01, -⟩ := idx_facts0 t
  show V c main_arg0 (((cfg0.win 0).blk t).view.emb (ix2 p k)) = V c main_arg0 (ix2 (row0 t p) k)
  refine congrArg _ (funext fun d => Fin.ext ?_)
  match d with
  | ⟨0, _⟩ => show win0_0.index t (0 : Fin 2) * 5000 + 1 * p.val = t.val * 5000 + p.val; omega
  | ⟨1, _⟩ => show win0_0.index t (1 : Fin 2) * 128 + 1 * k.val = k.val; omega

/-- The neighbourhood-mean block at (p, k) is the array's entry at (5000 t + p, k). -/
theorem blk0_1 (c : Dev nD) (t : Fin cfg0.N) (p : Fin 5000) (k : Fin 128) :
    iblk0 V c 1 t (ix2 p k) = V c main_v19 (ix2 (row0 t p) k) := by
  obtain ⟨-, -, e10, e11, -⟩ := idx_facts0 t
  show V c main_v19 (((cfg0.win 1).blk t).view.emb (ix2 p k)) = V c main_v19 (ix2 (row0 t p) k)
  refine congrArg _ (funext fun d => Fin.ext ?_)
  match d with
  | ⟨0, _⟩ => show win0_1.index t (0 : Fin 2) * 5000 + 1 * p.val = t.val * 5000 + p.val; omega
  | ⟨1, _⟩ => show win0_1.index t (1 : Fin 2) * 128 + 1 * k.val = k.val; omega

/-- The self weights are staged whole. -/
theorem blk0_2 (c : Dev nD) (t : Fin cfg0.N) (k : Fin 128) (q : Fin 128) :
    iblk0 V c 2 t (ix2 k q) = V c main_arg3 (ix2 k q) := by
  obtain ⟨-, -, -, -, e20, e21, -⟩ := idx_facts0 t
  show V c main_arg3 (((cfg0.win 2).blk t).view.emb (ix2 k q)) = V c main_arg3 (ix2 k q)
  refine congrArg _ (funext fun d => Fin.ext ?_)
  match d with
  | ⟨0, _⟩ => show win0_2.index t (0 : Fin 2) * 128 + 1 * k.val = k.val; omega
  | ⟨1, _⟩ => show win0_2.index t (1 : Fin 2) * 128 + 1 * q.val = q.val; omega

/-- The neighbour weights are staged whole. -/
theorem blk0_3 (c : Dev nD) (t : Fin cfg0.N) (k : Fin 128) (q : Fin 128) :
    iblk0 V c 3 t (ix2 k q) = V c main_arg4 (ix2 k q) := by
  obtain ⟨-, -, -, -, -, -, e30, e31, -⟩ := idx_facts0 t
  show V c main_arg4 (((cfg0.win 3).blk t).view.emb (ix2 k q)) = V c main_arg4 (ix2 k q)
  refine congrArg _ (funext fun d => Fin.ext ?_)
  match d with
  | ⟨0, _⟩ => show win0_3.index t (0 : Fin 2) * 128 + 1 * k.val = k.val; omega
  | ⟨1, _⟩ => show win0_3.index t (1 : Fin 2) * 128 + 1 * q.val = q.val; omega

/-- The bias row is staged whole. -/
theorem blk0_4 (c : Dev nD) (t : Fin cfg0.N) (q : Fin 128) :
    iblk0 V c 4 t (ix2 (0 : Fin 1) q) = V c main_v20 (ix2 (0 : Fin 1) q) := by
  obtain ⟨-, -, -, -, -, -, -, -, e40, e41, -⟩ := idx_facts0 t
  show V c main_v20 (((cfg0.win 4).blk t).view.emb (ix2 (0 : Fin 1) q)) = V c main_v20 (ix2 (0 : Fin 1) q)
  refine congrArg _ (funext fun d => Fin.ext ?_)
  match d with
  | ⟨0, _⟩ => show win0_4.index t (0 : Fin 2) * 1 + 1 * 0 = 0; omega
  | ⟨1, _⟩ => show win0_4.index t (1 : Fin 2) * 128 + 1 * q.val = q.val; omega

/-- Entry (p, q) of the output's block t is entry (5000 t + p, q) of the output array. -/
theorem emb0_5 (t : Fin cfg0.N) (p : Fin 5000) (q : Fin 128) :
    ((cfg0.win 5).blk t).view.emb (ix2 p q) = (ix2 (row0 t p) q : S100000x128.Idx) := by
  obtain ⟨-, -, -, -, -, -, -, -, -, -, e50, e51⟩ := idx_facts0 t
  refine funext fun d => Fin.ext ?_
  match d with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT t WRITES BACK is block t of G0 of the arrays as the region finds them. -/
theorem flushed0 (c : Dev nD) (t : Fin cfg0.N) :
    (dat0 V c).flushed 5 t = ((cfg0.win 5).blk t).view.read (Elt Ideal)
      (G0 (V c main_arg0) (V c main_v19) (V c main_arg3) (V c main_arg4) (V c main_v20)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Body.pay0_at (iblk0 V c 0 t) (iblk0 V c 1 t) (iblk0 V c 2 t) (iblk0 V c 3 t) (iblk0 V c 4 t) p q).trans ?_
  show _ = G0 (V c main_arg0) (V c main_v19) (V c main_arg3) (V c main_arg4) (V c main_v20) (((cfg0.win 5).blk t).view.emb (ix2 p q))
  rw [emb0_5 t p q]
  simp only [blk0_0 V c t, blk0_1 V c t, blk0_2 V c t, blk0_3 V c t, blk0_4 V c t]
  rfl

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The twenty blocks of 5000 rows cover the 100000 rows: row r is in block r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY of region 0 after its twenty points: the layer, rectified, of the arrays the region found. -/
theorem final0 (c : Dev nD) : (dat0 V c).arrAt 5 cfg0.N
    = G0 (V c main_arg0) (V c main_v19) (V c main_arg3) (V c main_arg4) (V c main_v20) :=
  (dat0 V c).arrAt_eq_of_cover 5 _ (fun t _ => flushed0 V c t) (cover0)

/-! ## Region 1: the dense kernel over 20 blocks of 5000 rows -/

/-- The output array of region 1 as ONE function of the arrays the region finds: the layer, rectified. -/
abbrev G1 (a0 a1 : S100000x128.Idx → Elt Ideal .f32) (a2 a3 : S128x128.Idx → Elt Ideal .f32) (a4 : S1x128.Idx → Elt Ideal .f32) :
    S100000x128.Idx → Elt Ideal .f32 :=
  Sage.rect zw (Sage.layer (N := 100000) (K := 128) (C := 128) a0 a1 a2 a3 fun q => a4 (ix2 (0 : Fin 1) q))

/-- The printed index maps, decided over the grid: at point t the row-blocked windows sit at block row t, every other block
    index is 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row below 20 is some point's. -/
theorem idx_onto1 : ∀ (q0 : Fin 20), ∃ t : Fin cfg1.N, win1_5.index t = ![q0.val, 0] :=
  (by decide +kernel : ∀ (q0 : Fin 20), ∃ t : Fin grid1.N, win1_5.index t = ![q0.val, 0])

theorem lt20_1 (t : Fin cfg1.N) : t.val < 20 := lt_of_lt_of_eq t.isLt N_1

/-- Row p of block t is row 5000 t + p of the array. -/
def row1 (t : Fin cfg1.N) (p : Fin 5000) : Fin 100000 := ⟨t.val * 5000 + p.val, by have := lt20_1 t; omega⟩

/-- The node-feature block at (p, k) is the array's entry at (5000 t + p, k). -/
theorem blk1_0 (c : Dev nD) (t : Fin cfg1.N) (p : Fin 5000) (k : Fin 128) :
    iblk1 V c 0 t (ix2 p k) = V c main_v21 (ix2 (row1 t p) k) := by
  obtain ⟨e00, e01, -⟩ := idx_facts1 t
  show V c main_v21 (((cfg1.win 0).blk t).view.emb (ix2 p k)) = V c main_v21 (ix2 (row1 t p) k)
  refine congrArg _ (funext fun d => Fin.ext ?_)
  match d with
  | ⟨0, _⟩ => show win1_0.index t (0 : Fin 2) * 5000 + 1 * p.val = t.val * 5000 + p.val; omega
  | ⟨1, _⟩ => show win1_0.index t (1 : Fin 2) * 128 + 1 * k.val = k.val; omega

/-- The neighbourhood-mean block at (p, k) is the array's entry at (5000 t + p, k). -/
theorem blk1_1 (c : Dev nD) (t : Fin cfg1.N) (p : Fin 5000) (k : Fin 128) :
    iblk1 V c 1 t (ix2 p k) = V c main_v33 (ix2 (row1 t p) k) := by
  obtain ⟨-, -, e10, e11, -⟩ := idx_facts1 t
  show V c main_v33 (((cfg1.win 1).blk t).view.emb (ix2 p k)) = V c main_v33 (ix2 (row1 t p) k)
  refine congrArg _ (funext fun d => Fin.ext ?_)
  match d with
  | ⟨0, _⟩ => show win1_1.index t (0 : Fin 2) * 5000 + 1 * p.val = t.val * 5000 + p.val; omega
  | ⟨1, _⟩ => show win1_1.index t (1 : Fin 2) * 128 + 1 * k.val = k.val; omega

/-- The self weights are staged whole. -/
theorem blk1_2 (c : Dev nD) (t : Fin cfg1.N) (k : Fin 128) (q : Fin 128) :
    iblk1 V c 2 t (ix2 k q) = V c main_arg6 (ix2 k q) := by
  obtain ⟨-, -, -, -, e20, e21, -⟩ := idx_facts1 t
  show V c main_arg6 (((cfg1.win 2).blk t).view.emb (ix2 k q)) = V c main_arg6 (ix2 k q)
  refine congrArg _ (funext fun d => Fin.ext ?_)
  match d with
  | ⟨0, _⟩ => show win1_2.index t (0 : Fin 2) * 128 + 1 * k.val = k.val; omega
  | ⟨1, _⟩ => show win1_2.index t (1 : Fin 2) * 128 + 1 * q.val = q.val; omega

/-- The neighbour weights are staged whole. -/
theorem blk1_3 (c : Dev nD) (t : Fin cfg1.N) (k : Fin 128) (q : Fin 128) :
    iblk1 V c 3 t (ix2 k q) = V c main_arg7 (ix2 k q) := by
  obtain ⟨-, -, -, -, -, -, e30, e31, -⟩ := idx_facts1 t
  show V c main_arg7 (((cfg1.win 3).blk t).view.emb (ix2 k q)) = V c main_arg7 (ix2 k q)
  refine congrArg _ (funext fun d => Fin.ext ?_)
  match d with
  | ⟨0, _⟩ => show win1_3.index t (0 : Fin 2) * 128 + 1 * k.val = k.val; omega
  | ⟨1, _⟩ => show win1_3.index t (1 : Fin 2) * 128 + 1 * q.val = q.val; omega

/-- The bias row is staged whole. -/
theorem blk1_4 (c : Dev nD) (t : Fin cfg1.N) (q : Fin 128) :
    iblk1 V c 4 t (ix2 (0 : Fin 1) q) = V c main_v34 (ix2 (0 : Fin 1) q) := by
  obtain ⟨-, -, -, -, -, -, -, -, e40, e41, -⟩ := idx_facts1 t
  show V c main_v34 (((cfg1.win 4).blk t).view.emb (ix2 (0 : Fin 1) q)) = V c main_v34 (ix2 (0 : Fin 1) q)
  refine congrArg _ (funext fun d => Fin.ext ?_)
  match d with
  | ⟨0, _⟩ => show win1_4.index t (0 : Fin 2) * 1 + 1 * 0 = 0; omega
  | ⟨1, _⟩ => show win1_4.index t (1 : Fin 2) * 128 + 1 * q.val = q.val; omega

/-- Entry (p, q) of the output's block t is entry (5000 t + p, q) of the output array. -/
theorem emb1_5 (t : Fin cfg1.N) (p : Fin 5000) (q : Fin 128) :
    ((cfg1.win 5).blk t).view.emb (ix2 p q) = (ix2 (row1 t p) q : S100000x128.Idx) := by
  obtain ⟨-, -, -, -, -, -, -, -, -, -, e50, e51⟩ := idx_facts1 t
  refine funext fun d => Fin.ext ?_
  match d with
  | ⟨0, _⟩ => show win1_5.index t (0 : Fin 2) * 5000 + 1 * p.val = t.val * 5000 + p.val; omega
  | ⟨1, _⟩ => show win1_5.index t (1 : Fin 2) * 128 + 1 * q.val = q.val; omega

/-- WHAT POINT t WRITES BACK is block t of G1 of the arrays as the region finds them. -/
theorem flushed1 (c : Dev nD) (t : Fin cfg1.N) :
    (dat1 V c).flushed 5 t = ((cfg1.win 5).blk t).view.read (Elt Ideal)
      (G1 (V c main_v21) (V c main_v33) (V c main_arg6) (V c main_arg7) (V c main_v34)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Body.pay1_at (iblk1 V c 0 t) (iblk1 V c 1 t) (iblk1 V c 2 t) (iblk1 V c 3 t) (iblk1 V c 4 t) p q).trans ?_
  show _ = G1 (V c main_v21) (V c main_v33) (V c main_arg6) (V c main_arg7) (V c main_v34) (((cfg1.win 5).blk t).view.emb (ix2 p q))
  rw [emb1_5 t p q]
  simp only [blk1_0 V c t, blk1_1 V c t, blk1_2 V c t, blk1_3 V c t, blk1_4 V c t]
  rfl

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- The twenty blocks of 5000 rows cover the 100000 rows: row r is in block r / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY of region 1 after its twenty points: the layer, rectified, of the arrays the region found. -/
theorem final1 (c : Dev nD) : (dat1 V c).arrAt 5 cfg1.N
    = G1 (V c main_v21) (V c main_v33) (V c main_arg6) (V c main_arg7) (V c main_v34) :=
  (dat1 V c).arrAt_eq_of_cover 5 _ (fun t _ => flushed1 V c t) (cover1)

/-! ## Region 2: the dense kernel over 20 blocks of 5000 rows -/

/-- The output array of region 2 as ONE function of the arrays the region finds: the layer. -/
abbrev G2 (a0 a1 : S100000x128.Idx → Elt Ideal .f32) (a2 a3 : S128x47.Idx → Elt Ideal .f32) (a4 : S1x47.Idx → Elt Ideal .f32) :
    S100000x47.Idx → Elt Ideal .f32 :=
  Sage.layer (N := 100000) (K := 128) (C := 47) a0 a1 a2 a3 fun q => a4 (ix2 (0 : Fin 1) q)

/-- The printed index maps, decided over the grid: at point t the row-blocked windows sit at block row t, every other block
    index is 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row below 20 is some point's. -/
theorem idx_onto2 : ∀ (q0 : Fin 20), ∃ t : Fin cfg2.N, win2_5.index t = ![q0.val, 0] :=
  (by decide +kernel : ∀ (q0 : Fin 20), ∃ t : Fin grid2.N, win2_5.index t = ![q0.val, 0])

theorem lt20_2 (t : Fin cfg2.N) : t.val < 20 := lt_of_lt_of_eq t.isLt N_2

/-- Row p of block t is row 5000 t + p of the array. -/
def row2 (t : Fin cfg2.N) (p : Fin 5000) : Fin 100000 := ⟨t.val * 5000 + p.val, by have := lt20_2 t; omega⟩

/-- The node-feature block at (p, k) is the array's entry at (5000 t + p, k). -/
theorem blk2_0 (c : Dev nD) (t : Fin cfg2.N) (p : Fin 5000) (k : Fin 128) :
    iblk2 V c 0 t (ix2 p k) = V c main_v35 (ix2 (row2 t p) k) := by
  obtain ⟨e00, e01, -⟩ := idx_facts2 t
  show V c main_v35 (((cfg2.win 0).blk t).view.emb (ix2 p k)) = V c main_v35 (ix2 (row2 t p) k)
  refine congrArg _ (funext fun d => Fin.ext ?_)
  match d with
  | ⟨0, _⟩ => show win2_0.index t (0 : Fin 2) * 5000 + 1 * p.val = t.val * 5000 + p.val; omega
  | ⟨1, _⟩ => show win2_0.index t (1 : Fin 2) * 128 + 1 * k.val = k.val; omega

/-- The neighbourhood-mean block at (p, k) is the array's entry at (5000 t + p, k). -/
theorem blk2_1 (c : Dev nD) (t : Fin cfg2.N) (p : Fin 5000) (k : Fin 128) :
    iblk2 V c 1 t (ix2 p k) = V c main_v47 (ix2 (row2 t p) k) := by
  obtain ⟨-, -, e10, e11, -⟩ := idx_facts2 t
  show V c main_v47 (((cfg2.win 1).blk t).view.emb (ix2 p k)) = V c main_v47 (ix2 (row2 t p) k)
  refine congrArg _ (funext fun d => Fin.ext ?_)
  match d with
  | ⟨0, _⟩ => show win2_1.index t (0 : Fin 2) * 5000 + 1 * p.val = t.val * 5000 + p.val; omega
  | ⟨1, _⟩ => show win2_1.index t (1 : Fin 2) * 128 + 1 * k.val = k.val; omega

/-- The self weights are staged whole. -/
theorem blk2_2 (c : Dev nD) (t : Fin cfg2.N) (k : Fin 128) (q : Fin 47) :
    iblk2 V c 2 t (ix2 k q) = V c main_arg9 (ix2 k q) := by
  obtain ⟨-, -, -, -, e20, e21, -⟩ := idx_facts2 t
  show V c main_arg9 (((cfg2.win 2).blk t).view.emb (ix2 k q)) = V c main_arg9 (ix2 k q)
  refine congrArg _ (funext fun d => Fin.ext ?_)
  match d with
  | ⟨0, _⟩ => show win2_2.index t (0 : Fin 2) * 128 + 1 * k.val = k.val; omega
  | ⟨1, _⟩ => show win2_2.index t (1 : Fin 2) * 47 + 1 * q.val = q.val; omega

/-- The neighbour weights are staged whole. -/
theorem blk2_3 (c : Dev nD) (t : Fin cfg2.N) (k : Fin 128) (q : Fin 47) :
    iblk2 V c 3 t (ix2 k q) = V c main_arg10 (ix2 k q) := by
  obtain ⟨-, -, -, -, -, -, e30, e31, -⟩ := idx_facts2 t
  show V c main_arg10 (((cfg2.win 3).blk t).view.emb (ix2 k q)) = V c main_arg10 (ix2 k q)
  refine congrArg _ (funext fun d => Fin.ext ?_)
  match d with
  | ⟨0, _⟩ => show win2_3.index t (0 : Fin 2) * 128 + 1 * k.val = k.val; omega
  | ⟨1, _⟩ => show win2_3.index t (1 : Fin 2) * 47 + 1 * q.val = q.val; omega

/-- The bias row is staged whole. -/
theorem blk2_4 (c : Dev nD) (t : Fin cfg2.N) (q : Fin 47) :
    iblk2 V c 4 t (ix2 (0 : Fin 1) q) = V c main_v48 (ix2 (0 : Fin 1) q) := by
  obtain ⟨-, -, -, -, -, -, -, -, e40, e41, -⟩ := idx_facts2 t
  show V c main_v48 (((cfg2.win 4).blk t).view.emb (ix2 (0 : Fin 1) q)) = V c main_v48 (ix2 (0 : Fin 1) q)
  refine congrArg _ (funext fun d => Fin.ext ?_)
  match d with
  | ⟨0, _⟩ => show win2_4.index t (0 : Fin 2) * 1 + 1 * 0 = 0; omega
  | ⟨1, _⟩ => show win2_4.index t (1 : Fin 2) * 47 + 1 * q.val = q.val; omega

/-- Entry (p, q) of the output's block t is entry (5000 t + p, q) of the output array. -/
theorem emb2_5 (t : Fin cfg2.N) (p : Fin 5000) (q : Fin 47) :
    ((cfg2.win 5).blk t).view.emb (ix2 p q) = (ix2 (row2 t p) q : S100000x47.Idx) := by
  obtain ⟨-, -, -, -, -, -, -, -, -, -, e50, e51⟩ := idx_facts2 t
  refine funext fun d => Fin.ext ?_
  match d with
  | ⟨0, _⟩ => show win2_5.index t (0 : Fin 2) * 5000 + 1 * p.val = t.val * 5000 + p.val; omega
  | ⟨1, _⟩ => show win2_5.index t (1 : Fin 2) * 47 + 1 * q.val = q.val; omega

/-- WHAT POINT t WRITES BACK is block t of G2 of the arrays as the region finds them. -/
theorem flushed2 (c : Dev nD) (t : Fin cfg2.N) :
    (dat2 V c).flushed 5 t = ((cfg2.win 5).blk t).view.read (Elt Ideal)
      (G2 (V c main_v35) (V c main_v47) (V c main_arg9) (V c main_arg10) (V c main_v48)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x47) hz, View.ld_unit_zero (S := S1x47) hz]
  funext j
  obtain ⟨p, q, rfl⟩ : ∃ (p : Fin 5000) (q : Fin 47), j = ix2 p q := ⟨j 0, j 1, eq_ix2 j⟩
  refine (Body.pay2_at (iblk2 V c 0 t) (iblk2 V c 1 t) (iblk2 V c 2 t) (iblk2 V c 3 t) (iblk2 V c 4 t) p q).trans ?_
  show _ = G2 (V c main_v35) (V c main_v47) (V c main_arg9) (V c main_arg10) (V c main_v48) (((cfg2.win 5).blk t).view.emb (ix2 p q))
  rw [emb2_5 t p q]
  simp only [blk2_0 V c t, blk2_1 V c t, blk2_2 V c t, blk2_3 V c t, blk2_4 V c t]
  rfl

/-- An index of the output array is in point t's block iff each coordinate is in the block's range on its axis. -/
theorem mem_blk2 (t : Fin cfg2.N) (i : S100000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v49).slice (win2_5.rect t)).set ↔ _
  rw [View.set_slice_whole, Rect.mem_set_unit]
  exact Iff.rfl

/-- The twenty blocks of 5000 rows cover the 100000 rows: row r is in block r / 5000. -/
theorem cover2 (i : S100000x47.Idx) : ∃ t : Fin cfg2.N, (cfg2.win 5).flush t = true ∧ i ∈ ((cfg2.win 5).blk t).view.set := by
  have hi0 : (i 0).val < 100000 := (i 0).isLt
  have hi1 : (i 1).val < 47 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 47 ≤ (i 1).val ∧ (i 1).val < win2_5.index t (1 : Fin 2) * 47 + 47; omega

/-- THE OUTPUT ARRAY of region 2 after its twenty points: the layer of the arrays the region found. -/
theorem final2 (c : Dev nD) : (dat2 V c).arrAt 5 cfg2.N
    = G2 (V c main_v35) (V c main_v47) (V c main_arg9) (V c main_arg10) (V c main_v48) :=
  (dat2 V c).arrAt_eq_of_cover 5 _ (fun t _ => flushed2 V c t) (cover2)

end Cert.KernelIdeal.Region

end
-- ==== Proof.KHost.lean ====
/-
  WHAT EACH REGION FINDS, AND THE RESULT. Between the launch and the first kernel, and between one kernel and the next, the host computes
  from the current node features h the neighbourhood means — the rows h[src] summed into their destination rows, times the reciprocal of the
  clamped edge count of each row (the count's reciprocal is computed once, before the first kernel, and kept) — and lays the bias out as one
  row. This module reads those stretches off the buffer contents at the segment boundaries: the kernel's k-th region finds the features
  H(k-1) (the launch's x for k = 1, the previous region's output array otherwise), their neighbourhood means, two argument weight matrices
  and an argument bias row; by the region lemmas its output array is then the layer of those, so the result buffer after the run is three
  nested layers of the launch contents. The gather and the scatter are carried as they stand, never opened.
-/
import proofs.«173220_j35330400977011_1_alg».proof.Proof.KRegion
import Idealize.ShloMosaic.Lib.StableHlo.Run

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

/-- The rows h[src] summed into the rows dst name (a negative source index wrapped by 100000 first). -/
def agg (h : FVec Ideal S100000x128 .f32) (src dst : IVec S1600000 32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The number of edges arriving at each node: a 1 summed into row dst(e) for every edge e. -/
def deg (dst : IVec S1600000 32) : FVec Ideal S100000x1 .f32 :=
  Host.scatterAdd scatter_S100000x1_S1600000x1_S1600000x1_1_0_0_1 (broadcastInDim S100000x1 ![] bcast_S_S100000x1 (constant (F := Ideal) S_ .f32 0x00000000#32)) (broadcastInDim S1600000x1 ![0] bcast_S1600000_S1600000x1_0 dst) (broadcastInDim S1600000x1 ![] bcast_S_S1600000x1 (constant (F := Ideal) S_ .f32 0x3F800000#32))

/-- The array of ones the count is clamped by, and divided into. -/
def ones : FVec Ideal S100000x1 .f32 := broadcastInDim S100000x1 ![] bcast_S_S100000x1 (constant (F := Ideal) S_ .f32 0x3F800000#32)

/-- The reciprocal of the number of edges arriving at each node, the number clamped below by 1. -/
def cntInv (dst : IVec S1600000 32) : FVec Ideal S100000x1 .f32 :=
  Host.divf (F := Ideal) ones (maximumf (deg dst) ones)

/-- The neighbourhood mean as the kernel's host side computes it: the sums times a reciprocal count per row. -/
def mean (h : FVec Ideal S100000x128 .f32) (src dst : IVec S1600000 32) (dinv : FVec Ideal S100000x1 .f32) : FVec Ideal S100000x128 .f32 :=
  mulf (agg h src dst) (broadcastInDim S100000x128 ![0, 1] bcast_S100000x1_S100000x128_0_1 dinv)

/-- A 128-long bias as one row. -/
def biasRow128 (b : FVec Ideal S128 .f32) : FVec Ideal S1x128 .f32 := shapeCast S1x128 b shapeCasts_S128_S1x128
/-- A 47-long bias as one row. -/
def biasRow47 (b : FVec Ideal S47 .f32) : FVec Ideal S1x47 .f32 := shapeCast S1x47 b shapeCasts_S47_S1x47

variable (m : (ℓ : Loc nD τ sig) → Buf (Elt Ideal) ℓ) (ρ : Dev nD → PrngReg)

/-- The node features after the first layer. -/
def H1 (c : Dev nD) : FVec Ideal S100000x128 .f32 :=
  Region.G0 (m ((c : Thread nD τ).loc main_arg0)) (mean (m ((c : Thread nD τ).loc main_arg0)) (m ((c : Thread nD τ).loc main_arg1)) (m ((c : Thread nD τ).loc main_arg2)) (cntInv (m ((c : Thread nD τ).loc main_arg2))))
    (m ((c : Thread nD τ).loc main_arg3)) (m ((c : Thread nD τ).loc main_arg4)) (biasRow128 (m ((c : Thread nD τ).loc main_arg5)))
/-- The node features after the second layer. -/
def H2 (c : Dev nD) : FVec Ideal S100000x128 .f32 :=
  Region.G1 (H1 m c) (mean (H1 m c) (m ((c : Thread nD τ).loc main_arg1)) (m ((c : Thread nD τ).loc main_arg2)) (cntInv (m ((c : Thread nD τ).loc main_arg2))))
    (m ((c : Thread nD τ).loc main_arg6)) (m ((c : Thread nD τ).loc main_arg7)) (biasRow128 (m ((c : Thread nD τ).loc main_arg8)))
/-- The result: the third layer. -/
def H3 (c : Dev nD) : FVec Ideal S100000x47 .f32 :=
  Region.G2 (H2 m c) (mean (H2 m c) (m ((c : Thread nD τ).loc main_arg1)) (m ((c : Thread nD τ).loc main_arg2)) (cntInv (m ((c : Thread nD τ).loc main_arg2))))
    (m ((c : Thread nD τ).loc main_arg9)) (m ((c : Thread nD τ).loc main_arg10)) (biasRow47 (m ((c : Thread nD τ).loc main_arg11)))

/-! ## Before the first kernel: the stretch from the launch contents -/
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem W1_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl
theorem W1_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl
/-- The reciprocal counts, computed once. -/
theorem W1_v7 (c : Dev nD) : W1 m ρ c (Proc.devRef .tc main_v7) = cntInv (m ((c : Thread nD τ).loc main_arg2)) := by
  show StableHlo.after hostOps0 (W0 m ρ c) (Proc.devRef .tc main_v7) = _
  after_results_simp <;> rfl
/-- The first kernel's neighbourhood means: of the launch's features. -/
theorem W1_v19 (c : Dev nD) : W1 m ρ c (Proc.devRef .tc main_v19)
    = mean (m ((c : Thread nD τ).loc main_arg0)) (m ((c : Thread nD τ).loc main_arg1)) (m ((c : Thread nD τ).loc main_arg2)) (cntInv (m ((c : Thread nD τ).loc main_arg2))) := by
  show StableHlo.after hostOps0 (W0 m ρ c) (Proc.devRef .tc main_v19) = _
  after_results_simp <;> rfl
/-- The first bias as a row. -/
theorem W1_v20 (c : Dev nD) : W1 m ρ c (Proc.devRef .tc main_v20) = biasRow128 (m ((c : Thread nD τ).loc main_arg5)) := by
  show StableHlo.after hostOps0 (W0 m ρ c) (Proc.devRef .tc main_v20) = _
  after_results_simp <;> rfl

/-! ## After the first kernel -/

/-- The first region's output array is the first layer. -/
theorem W2_v21 (c : Dev nD) : W2 m ρ c (Proc.devRef .tc main_v21) = H1 m c := by
  refine (W2_arr m ρ c 5).trans ((Region.final0 (V1 m ρ) c).trans ?_)
  show Region.G0 (W1 m ρ c (Proc.devRef .tc main_arg0)) (W1 m ρ c (Proc.devRef .tc main_v19)) (W1 m ρ c (Proc.devRef .tc main_arg3)) (W1 m ρ c (Proc.devRef .tc main_arg4)) (W1 m ρ c (Proc.devRef .tc main_v20)) = _
  rw [W1_arg0, W1_v19, W1_arg3, W1_arg4, W1_v20]; rfl
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_v7 (c : Dev nD) : W2 m ρ c (Proc.devRef .tc main_v7) = cntInv (m ((c : Thread nD τ).loc main_arg2)) :=
  (W2_of_ne m ρ c main_v7 (by decide)).trans (W1_v7 m ρ c)

/-! ## Before the second kernel: the stretch from the first region's exit contents -/

theorem W3_v21 (c : Dev nD) : W3 m ρ c (Proc.devRef .tc main_v21) = H1 m c :=
  (by after_results_simp <;> rfl : StableHlo.after hostOps1 (W2 m ρ c) (Proc.devRef .tc main_v21) = W2 m ρ c (Proc.devRef .tc main_v21)).trans (W2_v21 m ρ c)
theorem W3_arg1 (c : Dev nD) : W3 m ρ c (Proc.devRef .tc main_arg1) = (m ((c : Thread nD τ).loc main_arg1)) :=
  (by after_results_simp <;> rfl : StableHlo.after hostOps1 (W2 m ρ c) (Proc.devRef .tc main_arg1) = W2 m ρ c (Proc.devRef .tc main_arg1)).trans (W2_arg1 m ρ c)
theorem W3_arg2 (c : Dev nD) : W3 m ρ c (Proc.devRef .tc main_arg2) = (m ((c : Thread nD τ).loc main_arg2)) :=
  (by after_results_simp <;> rfl : StableHlo.after hostOps1 (W2 m ρ c) (Proc.devRef .tc main_arg2) = W2 m ρ c (Proc.devRef .tc main_arg2)).trans (W2_arg2 m ρ c)
theorem W3_arg6 (c : Dev nD) : W3 m ρ c (Proc.devRef .tc main_arg6) = (m ((c : Thread nD τ).loc main_arg6)) :=
  (by after_results_simp <;> rfl : StableHlo.after hostOps1 (W2 m ρ c) (Proc.devRef .tc main_arg6) = W2 m ρ c (Proc.devRef .tc main_arg6)).trans (W2_arg6 m ρ c)
theorem W3_arg7 (c : Dev nD) : W3 m ρ c (Proc.devRef .tc main_arg7) = (m ((c : Thread nD τ).loc main_arg7)) :=
  (by after_results_simp <;> rfl : StableHlo.after hostOps1 (W2 m ρ c) (Proc.devRef .tc main_arg7) = W2 m ρ c (Proc.devRef .tc main_arg7)).trans (W2_arg7 m ρ c)
theorem W3_arg9 (c : Dev nD) : W3 m ρ c (Proc.devRef .tc main_arg9) = (m ((c : Thread nD τ).loc main_arg9)) :=
  (by after_results_simp <;> rfl : StableHlo.after hostOps1 (W2 m ρ c) (Proc.devRef .tc main_arg9) = W2 m ρ c (Proc.devRef .tc main_arg9)).trans (W2_arg9 m ρ c)
theorem W3_arg10 (c : Dev nD) : W3 m ρ c (Proc.devRef .tc main_arg10) = (m ((c : Thread nD τ).loc main_arg10)) :=
  (by after_results_simp <;> rfl : StableHlo.after hostOps1 (W2 m ρ c) (Proc.devRef .tc main_arg10) = W2 m ρ c (Proc.devRef .tc main_arg10)).trans (W2_arg10 m ρ c)
theorem W3_arg11 (c : Dev nD) : W3 m ρ c (Proc.devRef .tc main_arg11) = (m ((c : Thread nD τ).loc main_arg11)) :=
  (by after_results_simp <;> rfl : StableHlo.after hostOps1 (W2 m ρ c) (Proc.devRef .tc main_arg11) = W2 m ρ c (Proc.devRef .tc main_arg11)).trans (W2_arg11 m ρ c)
theorem W3_v7 (c : Dev nD) : W3 m ρ c (Proc.devRef .tc main_v7) = cntInv (m ((c : Thread nD τ).loc main_arg2)) :=
  (by after_results_simp <;> rfl : StableHlo.after hostOps1 (W2 m ρ c) (Proc.devRef .tc main_v7) = W2 m ρ c (Proc.devRef .tc main_v7)).trans (W2_v7 m ρ c)
/-- The second kernel's neighbourhood means: of the first layer's output. -/
theorem W3_v33 (c : Dev nD) : W3 m ρ c (Proc.devRef .tc main_v33)
    = mean (H1 m c) (m ((c : Thread nD τ).loc main_arg1)) (m ((c : Thread nD τ).loc main_arg2)) (cntInv (m ((c : Thread nD τ).loc main_arg2))) := by
  refine (by after_results_simp <;> rfl : StableHlo.after hostOps1 (W2 m ρ c) (Proc.devRef .tc main_v33)
    = mean (W2 m ρ c (Proc.devRef .tc main_v21)) (W2 m ρ c (Proc.devRef .tc main_arg1)) (W2 m ρ c (Proc.devRef .tc main_arg2)) (W2 m ρ c (Proc.devRef .tc main_v7))).trans ?_
  rw [W2_v21, W2_arg1, W2_arg2, W2_v7]
/-- The second bias as a row. -/
theorem W3_v34 (c : Dev nD) : W3 m ρ c (Proc.devRef .tc main_v34) = biasRow128 (m ((c : Thread nD τ).loc main_arg8)) := by
  refine (by after_results_simp <;> rfl : StableHlo.after hostOps1 (W2 m ρ c) (Proc.devRef .tc main_v34)
    = biasRow128 (W2 m ρ c (Proc.devRef .tc main_arg8))).trans ?_
  rw [W2_arg8]

/-! ## After the second kernel -/

/-- The second region's output array is the second layer. -/
theorem W4_v35 (c : Dev nD) : W4 m ρ c (Proc.devRef .tc main_v35) = H2 m c := by
  refine (W4_arr m ρ c 5).trans ((Region.final1 (V3 m ρ) c).trans ?_)
  show Region.G1 (W3 m ρ c (Proc.devRef .tc main_v21)) (W3 m ρ c (Proc.devRef .tc main_v33)) (W3 m ρ c (Proc.devRef .tc main_arg6)) (W3 m ρ c (Proc.devRef .tc main_arg7)) (W3 m ρ c (Proc.devRef .tc main_v34)) = _
  rw [W3_v21, W3_v33, W3_arg6, W3_arg7, W3_v34]; rfl
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_v7 (c : Dev nD) : W4 m ρ c (Proc.devRef .tc main_v7) = cntInv (m ((c : Thread nD τ).loc main_arg2)) :=
  (W4_of_ne m ρ c main_v7 (by decide)).trans (W3_v7 m ρ c)

/-! ## Before the third kernel: the stretch from the second region's exit contents -/

theorem W5_v35 (c : Dev nD) : W5 m ρ c (Proc.devRef .tc main_v35) = H2 m c :=
  (by after_results_simp <;> rfl : StableHlo.after hostOps2 (W4 m ρ c) (Proc.devRef .tc main_v35) = W4 m ρ c (Proc.devRef .tc main_v35)).trans (W4_v35 m ρ c)
theorem W5_arg9 (c : Dev nD) : W5 m ρ c (Proc.devRef .tc main_arg9) = (m ((c : Thread nD τ).loc main_arg9)) :=
  (by after_results_simp <;> rfl : StableHlo.after hostOps2 (W4 m ρ c) (Proc.devRef .tc main_arg9) = W4 m ρ c (Proc.devRef .tc main_arg9)).trans (W4_arg9 m ρ c)
theorem W5_arg10 (c : Dev nD) : W5 m ρ c (Proc.devRef .tc main_arg10) = (m ((c : Thread nD τ).loc main_arg10)) :=
  (by after_results_simp <;> rfl : StableHlo.after hostOps2 (W4 m ρ c) (Proc.devRef .tc main_arg10) = W4 m ρ c (Proc.devRef .tc main_arg10)).trans (W4_arg10 m ρ c)
/-- The third kernel's neighbourhood means: of the second layer's output. -/
theorem W5_v47 (c : Dev nD) : W5 m ρ c (Proc.devRef .tc main_v47)
    = mean (H2 m c) (m ((c : Thread nD τ).loc main_arg1)) (m ((c : Thread nD τ).loc main_arg2)) (cntInv (m ((c : Thread nD τ).loc main_arg2))) := by
  refine (by after_results_simp <;> rfl : StableHlo.after hostOps2 (W4 m ρ c) (Proc.devRef .tc main_v47)
    = mean (W4 m ρ c (Proc.devRef .tc main_v35)) (W4 m ρ c (Proc.devRef .tc main_arg1)) (W4 m ρ c (Proc.devRef .tc main_arg2)) (W4 m ρ c (Proc.devRef .tc main_v7))).trans ?_
  rw [W4_v35, W4_arg1, W4_arg2, W4_v7]
/-- The third bias as a row. -/
theorem W5_v48 (c : Dev nD) : W5 m ρ c (Proc.devRef .tc main_v48) = biasRow47 (m ((c : Thread nD τ).loc main_arg11)) := by
  refine (by after_results_simp <;> rfl : StableHlo.after hostOps2 (W4 m ρ c) (Proc.devRef .tc main_v48)
    = biasRow47 (W4 m ρ c (Proc.devRef .tc main_arg11))).trans ?_
  rw [W4_arg11]

/-! ## After the third kernel: the result -/

/-- THE RESULT BUFFER after the run holds the third layer. -/
theorem W6_v49 (c : Dev nD) : W6 m ρ c (Proc.devRef .tc main_v49) = H3 m c := by
  refine (W6_arr m ρ c 5).trans ((Region.final2 (V5 m ρ) c).trans ?_)
  show Region.G2 (W5 m ρ c (Proc.devRef .tc main_v35)) (W5 m ρ c (Proc.devRef .tc main_v47)) (W5 m ρ c (Proc.devRef .tc main_arg9)) (W5 m ρ c (Proc.devRef .tc main_arg10)) (W5 m ρ c (Proc.devRef .tc main_v48)) = _
  rw [W5_v35, W5_v47, W5_arg9, W5_arg10, W5_v48]; rfl

end Cert.KernelIdeal.KValue

end
-- ==== Proof.KRun.lean ====
/-
  THE KERNEL PROGRAM'S RUN WITH ITS RESULT NAMED. The frame certificate runs @main as six segments — a host stretch, a region, a host
  stretch, a region, a host stretch, a region — and ends, on every core, with every unscoped buffer at the last boundary's contents; its
  own post keeps only the argument arrays. Here the same run is posted again with one more buffer read off that final state: the result
  buffer, which holds the third region's output array, and that array is the third layer of the launch contents (KHost). The launch,
  the segments and their chaining are the frame certificate's, cited as they stand.
-/
import proofs.«173220_j35330400977011_1_alg».proof.Proof.KHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters every weakly fair execution of @main on the TensorCores terminates, nothing faulting, with the
    result buffer at the third layer of the launch contents and the argument arrays as launched. -/
theorem run : θ_run defs (onTc (τ := τ) (main (F := Ideal))) ⟨m, fun _ => 0, ρ⟩ (fun r => ∀ c : Dev nD,
      r.2.mem ((c.tc : Thread nD τ).loc main_v49) = KValue.H3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v49 (by decide))).trans (KValue.W6_v49 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.RefValue.lean ====
/-
  THE REFERENCE'S RESULT as three layers. Its run's composed term repeats three pieces: the neighbourhood mean of a feature
  matrix h — the rows h[src] summed into their destination rows dst, divided by the number of edges arriving at each row clamped
  below by 1 —, the dense stage h · W_self + mean · W_neigh + bias, and the rectifier. Naming them shows the term as

      dense (relu (dense (relu (dense x (mean x))) (mean (relu (dense x (mean x)))))) (mean …),

  and the dense stage, read at node p and channel q, is the layer of SageSpec: each dot_general is the sum over the 128 features of
  left(p, k) * right(k, q), and the bias broadcast along the rows reads b(q). The gather and the scatter are never opened.
-/
import proofs.«173220_j35330400977011_1_alg».proof.Proof.Gen.ReferenceIdeal.Run
import proofs.«173220_j35330400977011_1_alg».proof.Proof.Gen.ReferenceIdeal.Read
import proofs.«173220_j35330400977011_1_alg».proof.Proof.LibMatmulRows
import proofs.«173220_j35330400977011_1_alg».proof.Proof.LibBiasRows
import proofs.«173220_j35330400977011_1_alg».proof.Proof.SageSpec

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem Idealize.ShloMosaic.StableHlo
open scoped BigOperators

/-- The rows h[src] summed into the rows dst name (a negative source index wrapped by 100000 first). -/
def agg (h : FVec Ideal S100000x128 .f32) (src dst : IVec S1600000 32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The number of edges arriving at each node: a 1 summed into row dst(e) for every edge e. -/
def deg (dst : IVec S1600000 32) : FVec Ideal S100000x1 .f32 :=
  Host.scatterAdd scatter_S100000x1_S1600000x1_S1600000x1_1_0_0_1 (broadcastInDim S100000x1 ![] bcast_S_S100000x1 (constant (F := Ideal) S_ .f32 0x00000000#32)) (broadcastInDim S1600000x1 ![0] bcast_S1600000_S1600000x1_0 dst) (broadcastInDim S1600000x1 ![] bcast_S_S1600000x1 (constant (F := Ideal) S_ .f32 0x3F800000#32))

/-- The number of edges arriving at each node, clamped below by 1. -/
def cnt (dst : IVec S1600000 32) : FVec Ideal S100000x1 .f32 :=
  maximumf (deg dst) (broadcastInDim S100000x1 ![] bcast_S_S100000x1 (constant (F := Ideal) S_ .f32 0x3F800000#32))

/-- The neighbourhood mean: the sums divided by the clamped counts, row by row. -/
def mean (h : FVec Ideal S100000x128 .f32) (src dst : IVec S1600000 32) : FVec Ideal S100000x128 .f32 :=
  Host.divf (F := Ideal) (agg h src dst) (broadcastInDim S100000x128 ![0, 1] bcast_S100000x1_S100000x128_0_1 (cnt dst))

/-- The dense stage into 128 channels. -/
def dense128 (h mn : FVec Ideal S100000x128 .f32) (ws wn : FVec Ideal S128x128 .f32) (b : FVec Ideal S128 .f32) : FVec Ideal S100000x128 .f32 :=
  addf (addf (Host.dotGeneral dot_S100000x128_S128x128_S100000x128_1_0_0_1_n_n none h ws) (Host.dotGeneral dot_S100000x128_S128x128_S100000x128_1_0_0_1_n_n none mn wn)) (broadcastInDim S100000x128 ![0, 1] bcast_S1x128_S100000x128_0_1 (broadcastInDim S1x128 ![1] bcast_S128_S1x128_1 b))

/-- The dense stage into 47 channels. -/
def dense47 (h mn : FVec Ideal S100000x128 .f32) (ws wn : FVec Ideal S128x47 .f32) (b : FVec Ideal S47 .f32) : FVec Ideal S100000x47 .f32 :=
  addf (addf (Host.dotGeneral dot_S100000x128_S128x47_S100000x47_1_0_0_1_n_n none h ws) (Host.dotGeneral dot_S100000x128_S128x47_S100000x47_1_0_0_1_n_n none mn wn)) (broadcastInDim S100000x47 ![0, 1] bcast_S1x47_S100000x47_0_1 (broadcastInDim S1x47 ![1] bcast_S47_S1x47_1 b))

/-- The rectifier, spelt as the program spells it. -/
def relu (x : FVec Ideal S100000x128 .f32) : FVec Ideal S100000x128 .f32 :=
  maximumf x (broadcastInDim S100000x128 ![] bcast_S_S100000x128 (constant (F := Ideal) S_ .f32 0x00000000#32))

/-- The three layers. -/
def out (x0 : FVec Ideal S100000x128 .f32) (x1 x2 : IVec S1600000 32) (x3 x4 : FVec Ideal S128x128 .f32) (x5 : FVec Ideal S128 .f32) (x6 x7 : FVec Ideal S128x128 .f32) (x8 : FVec Ideal S128 .f32)
    (x9 x10 : FVec Ideal S128x47 .f32) (x11 : FVec Ideal S47 .f32) : FVec Ideal S100000x47 .f32 :=
  let h1 := relu (dense128 x0 (mean x0 x1 x2) x3 x4 x5)
  let h2 := relu (dense128 h1 (mean h1 x1 x2) x6 x7 x8)
  dense47 h2 (mean h2 x1 x2) x9 x10 x11

/-- The run's composed term is the three layers of the launch contents (the same term, its repeated pieces named). -/
theorem res_eq (m : (ℓ : Loc nD τ sig) → Buf (Elt Ideal) ℓ) (c : Dev nD) :
    res_main_v73 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := rfl

/-- The dense stage into 128 channels is the layer, index by index. -/
theorem dense128_eq (h mn : FVec Ideal S100000x128 .f32) (ws wn : FVec Ideal S128x128 .f32) (b : FVec Ideal S128 .f32) :
    dense128 h mn ws wn b = Sage.layer (N := 100000) (K := 128) (C := 128) h mn ws wn (fun q => b (ix1 q)) := by
  funext i
  obtain ⟨p, q, rfl⟩ : ∃ (p : Fin 100000) (q : Fin 128), i = ix2 p q := ⟨i 0, i 1, eq_ix2 i⟩
  unfold dense128
  refine (addf_apply _ _ _).trans ?_
  refine congrArg₂ (· + ·) ((addf_apply _ _ _).trans (congrArg₂ (· + ·) ?_ ?_)) ?_
  · exact LibMatmulRows.hostdot_rows dot_S100000x128_S128x128_S100000x128_1_0_0_1_n_n rfl rfl
      Read.lhs_main_v18_0 Read.lhs_main_v18_1 Read.rhs_main_v18_0 Read.rhs_main_v18_1 h ws p q
  · exact LibMatmulRows.hostdot_rows dot_S100000x128_S128x128_S100000x128_1_0_0_1_n_n rfl rfl
      Read.lhs_main_v18_0 Read.lhs_main_v18_1 Read.rhs_main_v18_0 Read.rhs_main_v18_1 mn wn p q
  · exact LibBiasRows.bias_host (by decide) b _ _ p q

/-- The dense stage into 47 channels is the layer, index by index. -/
theorem dense47_eq (h mn : FVec Ideal S100000x128 .f32) (ws wn : FVec Ideal S128x47 .f32) (b : FVec Ideal S47 .f32) :
    dense47 h mn ws wn b = Sage.layer (N := 100000) (K := 128) (C := 47) h mn ws wn (fun q => b (ix1 q)) := by
  funext i
  obtain ⟨p, q, rfl⟩ : ∃ (p : Fin 100000) (q : Fin 47), i = ix2 p q := ⟨i 0, i 1, eq_ix2 i⟩
  unfold dense47
  refine (addf_apply _ _ _).trans ?_
  refine congrArg₂ (· + ·) ((addf_apply _ _ _).trans (congrArg₂ (· + ·) ?_ ?_)) ?_
  · exact LibMatmulRows.hostdot_rows dot_S100000x128_S128x47_S100000x47_1_0_0_1_n_n rfl rfl
      Read.lhs_main_v68_0 Read.lhs_main_v68_1 Read.rhs_main_v68_0 Read.rhs_main_v68_1 h ws p q
  · exact LibMatmulRows.hostdot_rows dot_S100000x128_S128x47_S100000x47_1_0_0_1_n_n rfl rfl
      Read.lhs_main_v68_0 Read.lhs_main_v68_1 Read.rhs_main_v68_0 Read.rhs_main_v68_1 mn wn p q
  · exact LibBiasRows.bias_host (by decide) b _ _ p q

/-- The rectifier clamps every entry at the word of 0.0. -/
theorem relu_eq (x : FVec Ideal S100000x128 .f32) : relu x = Sage.rect (Ideal.ofBits .f32 0x00000000#32) x := rfl

end Cert.ReferenceIdeal.RefValue

end
-- ==== Proof.LibMeanScale.lean ====
/-
  GENERAL LEMMAS: a mean written as a product with the reciprocal of a clamped count, against the quotient by the
  clamped count, on extended reals. Nothing here mentions a program.

  * one_word: the f32 word 0x3F800000 is the number 1.
  * max_one_ne_zero: a count clamped below by 1 is never zero, whatever the count is (an infinity included).
  * mul_recip_max: a * (1 / max e 1) = a / max e 1 for EVERY extended real a and e. The divisor max e 1 is at least 1, so
    neither quotient takes the division's zero-divisor branch, and both sides are a * (max e 1)⁻¹. No finiteness of a or of
    e is needed: when max e 1 is +inf both sides are a * 0.
  * scale_eq_div: the same law for arrays, entry by entry, when the scale's entry for index i is read at a source index
    f i (a broadcast), the word of 1 spelt as it is printed.
  * mean_scale: the law on whole arrays, in the host operations' spelling, for ANY shapes and ANY broadcast: sums times the
    broadcast of (one / max counts one) are the sums divided by the broadcast of (max counts one), when the array `one` holds 1
    everywhere. A broadcast only re-reads its operand at another index, so the law is the scalar one at every entry.
-/
import Idealize.ShloMosaic.PureOps.Ideal
import Idealize.ShloMosaic.Lib.ValueIdx

noncomputable section

namespace Cert.LibMeanScale

open Idealize.ShloMosaic

/-- The f32 word 0x3F800000 is 1. -/
theorem one_word : Ideal.ofBits .f32 0x3F800000#32 = 1 := by
  simp [Ideal.ofBits, Ideal.ieee, -EReal.coe_mul]; norm_num

/-- A count clamped below by 1 is not zero. -/
theorem max_one_ne_zero (e : EReal) : max e 1 ≠ 0 := by
  intro h
  have h1 : (1 : EReal) ≤ max e 1 := le_max_right e 1
  rw [h] at h1
  exact absurd h1 (not_le.mpr (by exact_mod_cast (zero_lt_one : (0 : ℝ) < 1)))

/-- The product with the reciprocal of a clamped count is the quotient by the clamped count, for every extended real. -/
theorem mul_recip_max (a e : EReal) : a * Ideal.div 1 (max e 1) = Ideal.div a (max e 1) := by
  rw [Ideal.div, if_neg (max_one_ne_zero e), one_mul, Ideal.div, if_neg (max_one_ne_zero e)]

/-- The same law entry by entry: the scale's entry for index i is read at f i, the number 1 is the printed word. -/
theorem scale_eq_div {ι κ : Type} (A : ι → EReal) (D : κ → EReal) (f : ι → κ) (i : ι) :
    A i * Ideal.div (Ideal.ofBits .f32 0x3F800000#32) (max (D (f i)) (Ideal.ofBits .f32 0x3F800000#32))
      = Ideal.div (A i) (max (D (f i)) (Ideal.ofBits .f32 0x3F800000#32)) := by
  rw [one_word]; exact mul_recip_max _ _

/-- The law on whole arrays, any shapes, any broadcast: sums times the broadcast reciprocal of the clamped counts are the sums
    divided by the broadcast clamped counts. -/
theorem mean_scale {S T : Shape} (dims : Fin T.rank → Fin S.rank) (hb : T.BroadcastsInDim S dims)
    (A : FVec Ideal S .f32) (D one : FVec Ideal T .f32) (hone : ∀ j, one j = 1) :
    mulf A (broadcastInDim S dims hb (Host.divf (F := Ideal) one (maximumf D one)))
      = Host.divf (F := Ideal) A (broadcastInDim S dims hb (maximumf D one)) := by
  funext i
  simp only [mulf, Host.divf, maximumf, broadcastInDim, Ideal.mulf_def, Ideal.hostDivf_def, Ideal.maximumf_def, hone]
  exact mul_recip_max _ _

end Cert.LibMeanScale

end
-- ==== Proof.Bridge.lean ====
/-
  THE TWO PROGRAMS' RESULTS ARE ONE FUNCTION of the launch contents. The kernel program's result is three nested layers whose
  neighbourhood means are sums TIMES a reciprocal clamped count; the reference's is three nested layers whose means are sums DIVIDED by the
  clamped count, its dense stages spelt with dot_general and broadcasts. The dense stages are the layer of SageSpec on both sides (KRegion,
  RefValue); the bias row reads the bias; and the means agree by the one law a * (1 / max d 1) = a / max d 1, which holds for every extended
  real (LibMeanScale). The gather and the scatter-adds are the same operations of the same operands in both programs and are compared as
  they stand, never opened.
-/
import proofs.«173220_j35330400977011_1_alg».proof.Proof.KHost
import proofs.«173220_j35330400977011_1_alg».proof.Proof.RefValue
import proofs.«173220_j35330400977011_1_alg».proof.Proof.LibMeanScale
import Idealize.ShloMosaic.Lib.ValueLayout

set_option maxRecDepth 16384

noncomputable section

namespace Cert.Proof.Bridge

open Idealize.ShloMosaic Idealize.ShloMosaic.TcCoe Idealize.ShloMosaic.ValueIdx Idealize.SL.Sem
open Cert.KernelIdeal (S100000x128 S100000x47 S100000x1 S1600000 S128x128 S128x47 S128 S47 S1x128 S1x47 S_)

/-- The array of ones holds the number 1 everywhere. -/
theorem ones_at (j : S100000x1.Idx) : Cert.KernelIdeal.KValue.ones j = 1 := Cert.LibMeanScale.one_word

/-- THE ONE LAW, on the programs' arrays: the kernel side's mean (sums times the reciprocal clamped count) is the reference's (sums
    divided by the clamped count). The second step compares the two programs' spellings of the same gather and scatter-adds. -/
theorem mean_eq (h : FVec Ideal S100000x128 .f32) (src dst : IVec S1600000 32) :
    Cert.KernelIdeal.KValue.mean h src dst (Cert.KernelIdeal.KValue.cntInv dst) = Cert.ReferenceIdeal.RefValue.mean h src dst :=
  (Cert.LibMeanScale.mean_scale _ _ (Cert.KernelIdeal.KValue.agg h src dst) (Cert.KernelIdeal.KValue.deg dst)
      Cert.KernelIdeal.KValue.ones ones_at).trans rfl

/-- The bias laid out as one row reads, at column q, the bias at q. -/
theorem biasRow128_at (b : FVec Ideal S128 .f32) (q : Fin 128) :
    Cert.KernelIdeal.KValue.biasRow128 b (ix2 (0 : Fin 1) q) = b (ix1 q) :=
  shapeCast_a_1a_apply b _ 0 q
theorem biasRow47_at (b : FVec Ideal S47 .f32) (q : Fin 47) :
    Cert.KernelIdeal.KValue.biasRow47 b (ix2 (0 : Fin 1) q) = b (ix1 q) :=
  shapeCast_a_1a_apply b _ 0 q

/-- A region's layer over the bias row is the layer over the bias. -/
theorem G0_eq (a0 a1 : FVec Ideal S100000x128 .f32) (a2 a3 : FVec Ideal S128x128 .f32) (b : FVec Ideal S128 .f32) :
    Cert.KernelIdeal.Region.G0 a0 a1 a2 a3 (Cert.KernelIdeal.KValue.biasRow128 b)
      = Sage.rect (Ideal.ofBits .f32 0x00000000#32) (Sage.layer (N := 100000) (K := 128) (C := 128) a0 a1 a2 a3 fun q => b (ix1 q)) :=
  congrArg (Sage.rect _) (congrArg (Sage.layer (N := 100000) (K := 128) (C := 128) a0 a1 a2 a3) (funext fun q => biasRow128_at b q))
theorem G1_eq (a0 a1 : FVec Ideal S100000x128 .f32) (a2 a3 : FVec Ideal S128x128 .f32) (b : FVec Ideal S128 .f32) :
    Cert.KernelIdeal.Region.G1 a0 a1 a2 a3 (Cert.KernelIdeal.KValue.biasRow128 b)
      = Sage.rect (Ideal.ofBits .f32 0x00000000#32) (Sage.layer (N := 100000) (K := 128) (C := 128) a0 a1 a2 a3 fun q => b (ix1 q)) :=
  congrArg (Sage.rect _) (congrArg (Sage.layer (N := 100000) (K := 128) (C := 128) a0 a1 a2 a3) (funext fun q => biasRow128_at b q))
theorem G2_eq (a0 a1 : FVec Ideal S100000x128 .f32) (a2 a3 : FVec Ideal S128x47 .f32) (b : FVec Ideal S47 .f32) :
    Cert.KernelIdeal.Region.G2 a0 a1 a2 a3 (Cert.KernelIdeal.KValue.biasRow47 b)
      = Sage.layer (N := 100000) (K := 128) (C := 47) a0 a1 a2 a3 fun q => b (ix1 q) :=
  congrArg (Sage.layer (N := 100000) (K := 128) (C := 47) a0 a1 a2 a3) (funext fun q => biasRow47_at b q)

/-- THE RESULTS AGREE: the reference's three layers of the launch contents are the kernel program's. -/
theorem result_eq (m : (ℓ : Loc Cert.KernelIdeal.nD Cert.KernelIdeal.τ Cert.KernelIdeal.sig) → Buf (Elt Ideal) ℓ) (c : Dev Cert.KernelIdeal.nD) :
    Cert.ReferenceIdeal.RefValue.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
      = Cert.KernelIdeal.KValue.H3 m c := by
  unfold Cert.KernelIdeal.KValue.H3 Cert.KernelIdeal.KValue.H2 Cert.KernelIdeal.KValue.H1 Cert.ReferenceIdeal.RefValue.out
  simp only [G0_eq, G1_eq, G2_eq, mean_eq, Cert.ReferenceIdeal.RefValue.dense128_eq, Cert.ReferenceIdeal.RefValue.dense47_eq,
    Cert.ReferenceIdeal.RefValue.relu_eq]

end Cert.Proof.Bridge

end
-- ==== Proof.lean ====
/-
  THE CLAIM: a three-layer graph convolution computed by three dense kernels, against its reference.

  Each layer takes the node features h [100000, 128], forms the neighbourhood mean of every node — the rows h[src(e)] summed over the
  edges e into row dst(e), scaled by the number of edges arriving at the row clamped below by 1 — and returns
  h · W_self + mean · W_neigh + bias, rectified after the first two layers. The kernel program computes the dense stage in a kernel,
  twenty blocks of 5000 rows at a time, with bf16 operands, and the mean on the host as sums TIMES a reciprocal count computed once; the
  reference computes everything on the host, the mean as sums DIVIDED by the count.

  At the exact instance a change of float format is the identity and both matrix products are the plain sum over the 128 features, so the
  two programs differ in one place only: a * (1 / max d 1) against a / max d 1. On the extended reals these are equal for EVERY a and d:
  max d 1 is at least 1, hence not zero, so neither quotient takes the division's zero-divisor branch and both are a * (max d 1)⁻¹
  (LibMeanScale). Nothing else is used: no distributivity, no cancellation, so the precondition (finite inputs) is never opened, and the
  gather and the scatter-add, which the two programs apply to equal operands, are never opened either.

  The pieces: the kernels' bodies read at an entry (KBody); each region's output array as the layer of the arrays the region finds, the
  twenty blocks covering the rows (KRegion); the host stretches between the regions and the result buffer as three nested layers (KHost);
  the run re-posted with the result named (KRun); the reference's run as the same three layers (RefValue, over the generated run);
  and that the two nestings are one function (Bridge). The three frames are the generated ones; the idealization rewrote nothing.
-/
import proofs.«173220_j35330400977011_1_alg».proof.Defs
import proofs.«173220_j35330400977011_1_alg».proof.Proof.Gen.Kernel
import proofs.«173220_j35330400977011_1_alg».proof.Proof.FrameKernel
import proofs.«173220_j35330400977011_1_alg».proof.Proof.Gen.KernelIdeal
import proofs.«173220_j35330400977011_1_alg».proof.Proof.KRun
import proofs.«173220_j35330400977011_1_alg».proof.Proof.Gen.ReferenceIdeal
import proofs.«173220_j35330400977011_1_alg».proof.Proof.Gen.Pre_finite_inputs
import proofs.«173220_j35330400977011_1_alg».proof.Proof.Gen.ReferenceIdeal.Run
import proofs.«173220_j35330400977011_1_alg».proof.Proof.Gen.ReferenceIdeal.Read
import proofs.«173220_j35330400977011_1_alg».proof.Proof.RefValue
import proofs.«173220_j35330400977011_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The claims -/

theorem frame_k : Cert.frame_Kernel := fun m ρ _ => Cert.Kernel.GenP.frame m ρ
theorem frame_ki : Cert.frame_KernelIdeal := fun m ρ _ => Cert.KernelIdeal.GenP.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the third layer of the launch contents in their result buffers. -/
theorem algebraic : Cert.algebraic_KernelIdeal_ReferenceIdeal := by
  intro m ρ m' ρ' _ hagree
  refine ⟨fun c => Cert.KernelIdeal.KValue.H3 m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.RefValue.res_eq, e0, e1, e2, e3, e4, e5, e6, e7, e8, e9, e10, e11]
  exact Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
